-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S2048x64 : Shape := ⟨2, ![2048, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S16384x64 .f32) (main_arg1 : FVec F S2048x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S16384x64 : Shape := ⟨2, ![16384, 64]⟩
abbrev S2048x64 : Shape := ⟨2, ![2048, 64]⟩
abbrev S64x2048 : Shape := ⟨2, ![64, 2048]⟩
abbrev S_ : Shape := ⟨0, ![]⟩
abbrev S2048 : Shape := ⟨1, ![2048]⟩
abbrev S1x2048 : Shape := ⟨2, ![1, 2048]⟩
abbrev S16384x2048 : Shape := ⟨2, ![16384, 2048]⟩
abbrev S1024x64 : Shape := ⟨2, ![1024, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 9
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S2048x64, .f32⟩
  | .hbm, ⟨2, _⟩ => ⟨S64x2048, .f32⟩
  | .hbm, ⟨3, _⟩ => ⟨S64x2048, .bf16⟩
  | .hbm, ⟨4, _⟩ => ⟨S2048x64, .f32⟩
  | .hbm, ⟨5, _⟩ => ⟨S_, .f32⟩
  | .hbm, ⟨6, _⟩ => ⟨S2048, .f32⟩
  | .hbm, ⟨7, _⟩ => ⟨S1x2048, .f32⟩
  | .hbm, ⟨8, _⟩ => ⟨S16384x2048, .f32⟩
  | .local _ .vmem, ⟨0, _⟩ => ⟨S1024x64, .f32⟩
  | .local _ .vmem, ⟨1, _⟩ => ⟨S1024x64, .f32⟩
  | .local _ .vmem, ⟨2, _⟩ => ⟨S64x2048, .bf16⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2048x64_S64x2048_1_0 : S2048x64.Transposes [1, 0] S64x2048
  bitsLt_bf16_f32 : FTy.bits .bf16 < FTy.bits .f32
  reducesTo_S2048x64_S2048_d1 : S2048x64.ReducesTo [1] S2048
  h_S_ : 0 < S_.numel
  bcast_S2048_S1x2048_1 : S2048.BroadcastsInDim S1x2048 (![1] : Fin 1 → Fin S1x2048.rank)
  inb_S1024x64_S1024x64_0_0 : ∀ a, (![0, 0] : Fin 2 → Nat) a + S1024x64.size a ≤ S1024x64.size a
  h_S1024x64 : 0 < S1024x64.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S1024x64_S1024 : S1024x64.Reduces [1] S1024
  shapeCasts_S1024_S1024x1 : S1024.ShapeCasts S1024x1
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .bf16 = 32 ∨ (Rect.block (s := S64x2048) S64x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S16384x2048.size a
  hwx0_3 : ∀ i : grid0.Coords, EltTy.bits .f32 = 32 ∨ (Rect.block (s := S16384x2048) S1024x2048.size (cc0_transform_3 i) (hinb0_3 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x64 : Shape := ⟨2, ![16384, 64]⟩
abbrev S2048x64 : Shape := ⟨2, ![2048, 64]⟩
abbrev S_ : Shape := ⟨0, ![]⟩
abbrev S16384 : Shape := ⟨1, ![16384]⟩
abbrev S16384x1 : Shape := ⟨2, ![16384, 1]⟩
abbrev S2048 : Shape := ⟨1, ![2048]⟩
abbrev S1x2048 : Shape := ⟨2, ![1, 2048]⟩
abbrev S16384x2048 : Shape := ⟨2, ![16384, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S2048x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S2048x64, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S2048x64_S2048_d1 : S2048x64.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  dot_S16384x64_S2048x64_S16384x2048_1_1_0_0_n_n_wf : DotDims.WF S16384x64 S2048x64 S16384x2048 [1] [1] [0] [0] [] []

variable [Facts₀]

def dot_S16384x64_S2048x64_S16384x2048_1_1_0_0_n_n : DotDims S16384x64 S2048x64 S16384x2048 where
  lhsContracting := [1]
  rhsContracting := [1]
  lhsNonContracting := [0]
  rhsNonContracting := [0]
  lhsBatch := []
  rhsBatch := []
  wf := dot_S16384x64_S2048x64_S16384x2048_1_1_0_0_n_n_wf

class Facts : Prop extends Facts₀ where

variable [Facts]
-- ==== Proof.LibERealSum.lean ====
/-
  General lemmas on real numbers seen as extended reals: the coercion commutes with finite sums, with the maximum,
  with division by a nonzero real and with the reciprocal square root of a positive real. Each says that an
  operation of the extended reals, applied to finite arguments away from its corners, is the operation of the
  reals.
-/
import Idealize.ShloMosaic.PureOps.Ideal

noncomputable section

open scoped BigOperators

namespace Cert.LibERealSum

open Idealize.ShloMosaic

/-- The coercion of a finite sum of reals is the sum of the coercions (sum over a finite set). -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of a finite sum of reals is the sum of the coercions (sum over a finite type). -/
theorem coe_sum {ι : Type*} [Fintype ι] (f : ι → ℝ) :
    ((∑ i, f i : ℝ) : EReal) = ∑ i, ((f i : ℝ) : EReal) :=
  coe_finset_sum Finset.univ f

/-- A sum of extended reals each of which is the coercion of a real is the coercion of the real sum. -/
theorem sum_eq_coe {ι : Type*} (s : Finset ι) (g : ι → EReal) (f : ι → ℝ)
    (h : ∀ i ∈ s, g i = ((f i : ℝ) : EReal)) :
    ∑ i ∈ s, g i = ((∑ i ∈ s, f i : ℝ) : EReal) := by
  rw [coe_finset_sum]
  exact Finset.sum_congr rfl h

/-- Zero plus a sum of coerced reals is the coercion of the real sum (sum over a finite set). -/
theorem zero_add_finset_sum_coe {ι : Type*} (s : Finset ι) (f : ι → ℝ) :
    (0 : EReal) + ∑ i ∈ s, ((f i : ℝ) : EReal) = ((∑ i ∈ s, f i : ℝ) : EReal) := by
  rw [zero_add, coe_finset_sum]

/-- Zero plus a sum of coerced reals is the coercion of the real sum (sum over a finite type). -/
theorem zero_add_sum_coe {ι : Type*} [Fintype ι] (f : ι → ℝ) :
    (0 : EReal) + ∑ i, ((f i : ℝ) : EReal) = ((∑ i, f i : ℝ) : EReal) :=
  zero_add_finset_sum_coe Finset.univ f

/-- The maximum of two coerced reals is the coercion of their maximum. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

/-- Dividing a coerced real by a coerced nonzero real gives the coerced quotient. -/
theorem div_coe_coe (a : ℝ) {b : ℝ} (hb : b ≠ 0) :
    Ideal.div (a : EReal) (b : EReal) = ((a / b : ℝ) : EReal) := by
  rw [Ideal.div_coe hb, ← EReal.coe_mul, one_div, div_eq_mul_inv]

/-- The reciprocal square root of a coerced positive real is the coerced reciprocal of its square root. -/
theorem rsqrt_coe_pos {r : ℝ} (hr : 0 < r) :
    Ideal.rsqrt ((r : ℝ) : EReal) = (((Real.sqrt r)⁻¹ : ℝ) : EReal) := by
  rw [Ideal.rsqrt_coe, if_neg (not_lt.2 hr.le), if_neg hr.ne']

/-- The square root of a coerced non-negative real is the coerced square root. -/
theorem sqrt_coe_nonneg {r : ℝ} (hr : 0 ≤ r) :
    Ideal.sqrt ((r : ℝ) : EReal) = ((Real.sqrt r : ℝ) : EReal) := by
  rw [Ideal.sqrt_coe, if_neg (not_lt.2 hr)]

end Cert.LibERealSum

end
-- ==== Proof.LibF32Literals.lean ====
/-
  Binary32 literals as extended reals. At the exact (extended-real) reading of floats a literal is the value its
  IEEE-754 pattern denotes: sign bit, eight exponent bits with bias 127, twenty-three fraction bits. The patterns
  here are those of 0, 1, 2, 16, 256 and 16384.
-/
import Idealize.ShloMosaic.PureOps.Ideal

noncomputable section

namespace Cert.LibF32Literals

open Idealize.ShloMosaic

/-- The pattern of +0.0 denotes 0. -/
theorem ofBits_zero : Ideal.ofBits .f32 0x00000000#32 = 0 := by
  simp [Ideal.ofBits, Ideal.ieee]

/-- The pattern 0x3F800000 denotes 1. -/
theorem ofBits_one : Ideal.ofBits .f32 0x3F800000#32 = 1 := by
  simp [Ideal.ofBits, Ideal.ieee, -EReal.coe_mul]; norm_num

/-- The pattern 0x3F800000 denotes the real 1. -/
theorem ofBits_one_coe : Ideal.ofBits .f32 0x3F800000#32 = ((1 : ℝ) : EReal) := by
  rw [ofBits_one]; norm_cast

/-- The pattern 0x40000000 denotes the real 2. -/
theorem ofBits_two : Ideal.ofBits .f32 0x40000000#32 = ((2 : ℝ) : EReal) := by
  simp [Ideal.ofBits, Ideal.ieee, -EReal.coe_mul]; norm_num

/-- The pattern 0x41800000 denotes the real 16. -/
theorem ofBits_16 : Ideal.ofBits .f32 0x41800000#32 = ((16 : ℝ) : EReal) := by
  simp [Ideal.ofBits, Ideal.ieee, -EReal.coe_mul]; norm_num

/-- The pattern 0x43800000 denotes the real 256. -/
theorem ofBits_256 : Ideal.ofBits .f32 0x43800000#32 = ((256 : ℝ) : EReal) := by
  simp [Ideal.ofBits, Ideal.ieee, -EReal.coe_mul]; norm_num

/-- The pattern 0x46800000 denotes the real 16384. -/
theorem ofBits_16384 : Ideal.ofBits .f32 0x46800000#32 = ((16384 : ℝ) : EReal) := by
  simp [Ideal.ofBits, Ideal.ieee, -EReal.coe_mul]; norm_num

end Cert.LibF32Literals

end
-- ==== Proof.LibRadialClamp.lean ====
/-
  The radial kernel exp(−‖v_p − u_q‖²) of two families of row vectors, over the extended reals.

  The squared distance is spelt by its expansion |v_p|² + |u_q|² − 2·⟨v_p, u_q⟩, each term a sum over the feature
  coordinate. One arrangement clamps the expansion at zero before the exponential, the other does not. On the
  extended reals the two differ (∞ − ∞ is −∞ there, which the clamp raises to 0), but when every entry is a real
  number the expansion is the sum of the squares (v_p(c) − u_q(c))², which is never negative: the clamp does nothing.
-/
import Idealize.ShloMosaic.PureOps.Ideal
import Idealize.ShloMosaic.Lib.ValueIdx
import proofs.«153139_j65481071403553_2_alg».proof.Proof.LibERealSum
import proofs.«153139_j65481071403553_2_alg».proof.Proof.LibF32Literals

noncomputable section

open scoped BigOperators

namespace Cert.LibRadialClamp

open Idealize.ShloMosaic Idealize.ShloMosaic.ValueIdx

variable {a b k : ℕ}

/-- The inner product ⟨v_p, u_q⟩ of row p of v with row q of u, a sum over the feature coordinate. -/
def inner (v : (⟨2, ![a, k]⟩ : Shape).Idx → EReal) (u : (⟨2, ![b, k]⟩ : Shape).Idx → EReal) (p : Fin a) (q : Fin b) : EReal :=
  ∑ c : Fin k, v (ix2 p c) * u (ix2 q c)

/-- The expansion |v_p|² + |u_q|² − 2·⟨v_p, u_q⟩ of the squared distance, the factor 2 the binary32 literal. -/
def gap (v : (⟨2, ![a, k]⟩ : Shape).Idx → EReal) (u : (⟨2, ![b, k]⟩ : Shape).Idx → EReal) (p : Fin a) (q : Fin b) : EReal :=
  (inner v v p p + inner u u q q) - Ideal.ofBits .f32 0x40000000#32 * inner v u p q

/-- exp(−max(gap, 0)): the expansion clamped at zero before the exponential. -/
def clamped (v : (⟨2, ![a, k]⟩ : Shape).Idx → EReal) (u : (⟨2, ![b, k]⟩ : Shape).Idx → EReal) :
    (⟨2, ![a, b]⟩ : Shape).Idx → EReal := fun i =>
  Ideal.exp (Ideal.ofBits .f32 0xBF800000#32 * max (gap v u (i 0) (i 1)) (Ideal.ofBits .f32 0x00000000#32))

/-- exp(−gap): the expansion as it is. -/
def plain (v : (⟨2, ![a, k]⟩ : Shape).Idx → EReal) (u : (⟨2, ![b, k]⟩ : Shape).Idx → EReal) :
    (⟨2, ![a, b]⟩ : Shape).Idx → EReal := fun i =>
  Ideal.exp (Ideal.ofBits .f32 0xBF800000#32 * gap v u (i 0) (i 1))

/-- Over real entries the expansion is ∑ (v_p(c) − u_q(c))², so it is not negative. -/
theorem gap_nonneg (v : (⟨2, ![a, k]⟩ : Shape).Idx → EReal) (u : (⟨2, ![b, k]⟩ : Shape).Idx → EReal)
    (hv : ∀ i, ∃ r : ℝ, v i = (r : EReal)) (hu : ∀ i, ∃ r : ℝ, u i = (r : EReal)) (p : Fin a) (q : Fin b) :
    0 ≤ gap v u p q := by
  choose f hf using hv
  choose g hg using hu
  have h1 : inner v v p p = ((∑ c : Fin k, f (ix2 p c) * f (ix2 p c) : ℝ) : EReal) :=
    LibERealSum.sum_eq_coe _ _ _ fun c _ => by rw [hf, ← EReal.coe_mul]
  have h2 : inner u u q q = ((∑ c : Fin k, g (ix2 q c) * g (ix2 q c) : ℝ) : EReal) :=
    LibERealSum.sum_eq_coe _ _ _ fun c _ => by rw [hg, ← EReal.coe_mul]
  have h3 : inner v u p q = ((∑ c : Fin k, f (ix2 p c) * g (ix2 q c) : ℝ) : EReal) :=
    LibERealSum.sum_eq_coe _ _ _ fun c _ => by rw [hf, hg, ← EReal.coe_mul]
  rw [gap, h1, h2, h3, LibF32Literals.ofBits_two, ← EReal.coe_add, ← EReal.coe_mul, ← EReal.coe_sub, ← EReal.coe_zero,
    EReal.coe_le_coe_iff]
  have e : (∑ c : Fin k, f (ix2 p c) * f (ix2 p c)) + (∑ c : Fin k, g (ix2 q c) * g (ix2 q c))
      - 2 * ∑ c : Fin k, f (ix2 p c) * g (ix2 q c) = ∑ c : Fin k, (f (ix2 p c) - g (ix2 q c)) ^ 2 := by
    rw [Finset.mul_sum, ← Finset.sum_add_distrib, ← Finset.sum_sub_distrib]
    exact Finset.sum_congr rfl fun c _ => by ring
  rw [e]
  exact Finset.sum_nonneg fun c _ => sq_nonneg _

/-- So over real entries the clamp is the identity and the two arrangements are one function. -/
theorem plain_eq_clamped (v : (⟨2, ![a, k]⟩ : Shape).Idx → EReal) (u : (⟨2, ![b, k]⟩ : Shape).Idx → EReal)
    (hv : ∀ i, ∃ r : ℝ, v i = (r : EReal)) (hu : ∀ i, ∃ r : ℝ, u i = (r : EReal)) :
    plain v u = clamped v u := by
  funext i
  unfold plain clamped
  rw [LibF32Literals.ofBits_zero, max_eq_left (gap_nonneg v u hv hu (i 0) (i 1))]

end Cert.LibRadialClamp

end
-- ==== Proof.RbfRef.lean ====
/-
  The reference's result, read at an index, is exp(−gap): the row norms, the tile norms and the inner products are
  each a sum over the feature coordinate (the host sums start from the literal zero, which adds nothing), and the
  broadcasts read the row coordinate alone, the column coordinate alone, or nothing.
-/
import proofs.«153139_j65481071403553_2_alg».proof.Proof.Gen.ReferenceIdeal.Read
import proofs.«153139_j65481071403553_2_alg».proof.Proof.LibRadialClamp

noncomputable section

open scoped BigOperators

namespace Cert.RbfRef

open Idealize.ShloMosaic Idealize.ShloMosaic.ValueIdx Cert.ReferenceIdeal Cert.ReferenceIdeal.Read

/-- The reference's last stage is the unclamped radial kernel of the two argument arrays. -/
theorem val_eq_plain (x : (⟨S16384x64, .f32⟩ : BufTy).Contents (Elt Ideal)) (r : (⟨S2048x64, .f32⟩ : BufTy).Contents (Elt Ideal)) :
    val_main_v15 (F := Ideal) x r = LibRadialClamp.plain x r := by
  funext i
  obtain ⟨p, q, rfl⟩ : ∃ (p : Fin 16384) (q : Fin 2048), i = ix2 p q := ⟨i 0, i 1, eq_ix2 i⟩
  have e1 : ∀ c : Fin 64, idx_main_v1 (idx_main_v2 (idx_main_v7 (ix2 p q))) c = ix2 p c := fun c =>
    funext fun a => Fin.ext (by match a with | ⟨0, _⟩ => rfl | ⟨1, _⟩ => rfl)
  have e4 : ∀ c : Fin 64, idx_main_v4 (idx_main_v5 (idx_main_v8 (ix2 p q))) c = ix2 q c := fun c =>
    funext fun a => Fin.ext (by match a with | ⟨0, _⟩ => rfl | ⟨1, _⟩ => rfl)
  have el : ∀ c : Fin 64, lidx_main_v6 (ix2 p q) c = ix2 p c := fun c =>
    funext fun a => Fin.ext (by match a with | ⟨0, _⟩ => rfl | ⟨1, _⟩ => rfl)
  have er : ∀ c : Fin 64, ridx_main_v6 (ix2 p q) c = ix2 q c := fun c =>
    funext fun a => Fin.ext (by match a with | ⟨0, _⟩ => rfl | ⟨1, _⟩ => rfl)
  rw [val_main_v15_apply, val_main_v14_apply, val_main_v13_apply, val_main_cst_2_apply, val_main_v12_apply,
    val_main_v9_apply, val_main_v7_apply, val_main_v2_apply, val_main_v1_apply, val_main_v8_apply, val_main_v5_apply,
    val_main_v4_apply, val_main_v11_apply, val_main_v10_apply, val_main_cst_1_apply, val_main_v6_apply]
  simp only [val_main_v0_apply, val_main_v3_apply, val_main_cst_apply, val_main_cst_0_apply, e1, e4, el, er,
    Ideal.ofBits_def, Ideal.addf_def, Ideal.subf_def, Ideal.mulf_def, Ideal.hostUnary_exp_def,
    LibF32Literals.ofBits_zero, zero_add]
  rfl

end Cert.RbfRef

end
-- ==== Proof.LibFiniteReal.lean ====
/-
  An extended real whose absolute value is below +∞ is a real number. The absolute value is max(x, −x), the
  comparison is the order's, and +∞ is what the binary32 pattern 0x7F800000 denotes: this is how a precondition
  "every entry is finite" reads, entry by entry, on the extended reals.
-/
import Idealize.ShloMosaic.PureOps.Ideal

noncomputable section

namespace Cert.LibFiniteReal

open Idealize.ShloMosaic

/-- The pattern 0x7F800000 denotes +∞. -/
theorem ofBits_inf : Ideal.ofBits .f32 0x7F800000#32 = ⊤ := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ a : ℝ, x = (a : EReal) := by
  rw [ofBits_inf] at h
  induction x using EReal.rec with
  | bot => exfalso; revert h; simp [Ideal.cmp]
  | coe a => exact ⟨a, rfl⟩
  | top => exfalso; revert h; simp [Ideal.cmp]

end Cert.LibFiniteReal

end
-- ==== Proof.RbfFinite.lean ====
/-
  Finite inputs are real numbers. The precondition says, of every entry x of either argument, that |x| < +∞, folded
  over the whole array by `and` and the two arrays' verdicts joined by `and`; each entry is then a real number.
-/
import proofs.«153139_j65481071403553_2_alg».proof.Pre_finite_inputs
import proofs.«153139_j65481071403553_2_alg».proof.Proof.Gen.Pre_finite_inputs
import proofs.«153139_j65481071403553_2_alg».proof.Proof.LibFiniteReal
import Idealize.ShloMosaic.Lib.ReduceAll
import Idealize.ShloMosaic.Lib.ValueIdx
import Idealize.ShloMosaic.Lib.Affine
import Idealize.ShloMosaic.PureOps.Ideal

noncomputable section

namespace Cert.RbfFinite

open Idealize.ShloMosaic Idealize.ShloMosaic.ValueIdx Cert.Pre_finite_inputs

instance : Subsingleton S_.Idx := ⟨fun _ _ => funext fun d => d.elim0⟩

/-- Under the precondition every entry of both arguments is a real number. -/
theorem real_of_pre (x : FVec Ideal S16384x64 .f32) (r : FVec Ideal S2048x64 .f32)
    (h : Cert.Pre_finite_inputs.fn (F := Ideal) x r = fun _ => 1#1) :
    (∀ i, ∃ a : ℝ, x i = (a : EReal)) ∧ (∀ i, ∃ a : ℝ, r i = (a : EReal)) := by
  have h0 := congrFun h ix0
  dsimp only [Cert.Pre_finite_inputs.fn] at h0
  obtain ⟨hx, hr⟩ := IntOp.andi_eq_one.1 h0
  refine ⟨fun i => ?_, fun i => ?_⟩
  · exact LibFiniteReal.real_of_abs_lt (x i) (Host.reduce_andi_all _ _ _ _ _ hx i)
  · exact LibFiniteReal.real_of_abs_lt (r i) (Host.reduce_andi_all _ _ _ _ _ hr i)

end Cert.RbfFinite

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.LibKeepdims.lean ====
/-
  Keepdims layouts and single-axis sums of rank-3 arrays, read at an index written by coordinates.

  A sum over one axis that keeps the axis as a unit axis is, in a kernel, a lane or sublane reduction followed by a
  shape cast that appends or inserts the unit axis, and its consumer broadcasts the unit axis back. Each of these
  operations reads its operand at an index whose coordinates are those of the result index with the unit coordinate
  dropped, added or set to zero; the sums range over the coordinates of the reduced axis.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A `[1, 1, b]` array broadcast to `[1, a, b]` reads, at `(u, i, r)`, the operand's one row at `r`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (r : Fin b) :
    broadcastTo ⟨3, ![1, a, b]⟩ v h (ix3 u i r) = v (ix3 (0 : Fin 1) (0 : Fin 1) r) := by
  refine broadcastTo_apply v h (ix3 u i r) (ix3 (0 : Fin 1) (0 : Fin 1) r) fun ax => ?_
  match ax with
  | ⟨0, _⟩ => exact (if_pos rfl).symm
  | ⟨1, _⟩ => exact (if_pos rfl).symm
  | ⟨2, _⟩ =>
    show r.val = if b = 1 then 0 else r.val
    split
    · have := r.isLt; omega
    · rfl

/-- The sum of an `[a, b, c]` array over its last axis reads, at `(i, j)`, the sum over `k` of the operand at
    `(i, j, k)`. At the ideal values. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext
      (match ax with | ⟨0, _⟩ => rfl | ⟨1, _⟩ => rfl | ⟨2, _⟩ => rfl)))

/-- The sum of an `[a, b, c]` array over its middle axis reads, at `(i, r)`, the sum over `k` of the operand at
    `(i, k, r)`. At the ideal values. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (r : Fin c) :
    multiReduction .add [1] ⟨2, ![a, c]⟩ src acc h hφ hacc (ix2 i r) = ∑ k : Fin b, src (ix3 i k r) :=
  (Ideal.multiReduction_add_single src acc h hφ hacc (ix2 i r)).trans
    (Finset.sum_congr rfl fun k _ => congrArg src (funext fun ax => Fin.ext
      (match ax with | ⟨0, _⟩ => rfl | ⟨1, _⟩ => rfl | ⟨2, _⟩ => rfl)))

end Cert.LibKeepdims
-- ==== Proof.RbfBody.lean ====
/-
  The body's result at an entry (p, q) of its block, at the ideal values: the row norm of the block's row p (a lane
  sum kept as a column and broadcast along the tile), plus the tile norm the body loads as a [1, b] row, minus twice
  the product of the block's rows with the loaded k×b tile into the zero accumulator, clamped at zero, negated and
  exponentiated. The change of float format before the product is the identity on the extended reals.
-/
import proofs.«153139_j65481071403553_2_alg».proof.Proof.Gen.KernelIdeal.Skeleton
import proofs.«153139_j65481071403553_2_alg».proof.Proof.LibMatmulPlain
import proofs.«153139_j65481071403553_2_alg».proof.Proof.LibRowStat
import proofs.«153139_j65481071403553_2_alg».proof.Proof.LibKeepdims
import Idealize.ShloMosaic.Lib.ValueLayout
import Idealize.ShloMosaic.Lib.Pipeline.Value

noncomputable section

open scoped BigOperators

namespace Cert.RbfBody

open Idealize.ShloMosaic Idealize.ShloMosaic.ValueIdx Cert.KernelIdeal Cert.KernelIdeal.Gen

/-- The row norms, kept as a column and broadcast along the tile. -/
def rowPart (x0 : Vec Ideal S1024x64 .f32) : FVec Ideal S1024x2048 .f32 :=
  broadcastTo S1024x2048 (shapeCast S1024x1 (multiReduction .add [1] S1024 (mulf x0 x0) 0x00000000#32 reduces_S1024x64_S1024 (.inl rfl) rfl)
    shapeCasts_S1024_S1024x1) broadcasts_S1024x1_S1024x2048

/-- The loaded row of tile norms, broadcast down the rows. -/
def colPart (x2 : Vec Ideal S1x2048 .f32) : FVec Ideal S1024x2048 .f32 :=
  broadcastTo S1024x2048 (shapeCast S1x2048 x2 shapeCasts_S1x2048_S1x2048) broadcasts_S1x2048_S1024x2048

/-- The product of the block's rows with the loaded tile, into the zero accumulator. -/
def crossPart (x0 : Vec Ideal S1024x64 .f32) (x1 : Vec Ideal S64x2048 .bf16) : FVec Ideal S1024x2048 .f32 :=
  have v2 : FVec Ideal S64x2048 .bf16 := shapeCast S64x2048 x1 shapeCasts_S64x2048_S64x2048
  have v8 : FVec Ideal S1024x64 .bf16 := truncf .bf16 x0 bitsLt_bf16_f32
  have acc : FVec Ideal S1024x2048 .f32 := constant S1024x2048 .f32 0x00000000#32
  matmul dot_S1024x64_S64x2048_S1024x2048_1_0_0_1_n_n none v8 v2 acc

/-- The body's stored value is a pointwise expression of the three parts. -/
theorem pay_eq (x0 : Vec Ideal S1024x64 .f32) (x1 : Vec Ideal S64x2048 .bf16) (x2 : Vec Ideal S1x2048 .f32) (i : S1024x2048.Idx) :
    k0_pay1 (F := Ideal) x0 x1 x2 i
      = Ideal.exp (Ideal.ofBits .f32 0xBF800000#32 * max ((rowPart x0 i + colPart x2 i) - Ideal.ofBits .f32 0x40000000#32 * crossPart x0 x1 i)
          (Ideal.ofBits .f32 0x00000000#32)) := rfl

theorem rowPart_apply (x0 : Vec Ideal S1024x64 .f32) (p : Fin 1024) (q : Fin 2048) :
    rowPart x0 (ix2 p q) = ∑ c : Fin 64, x0 (ix2 p c) * x0 (ix2 p c) := by
  unfold rowPart
  rw [LibRowStat.broadcastTo_a1_ab_apply, LibKeepdims.shapeCast_a_a1_apply]
  exact LibRowStat.sum_lanes_apply (a := 1024) (b := 64) (mulf x0 x0) 0x00000000#32 reduces_S1024x64_S1024 (.inl rfl) rfl p

theorem colPart_apply (x2 : Vec Ideal S1x2048 .f32) (p : Fin 1024) (q : Fin 2048) :
    colPart x2 (ix2 p q) = x2 (ix2 (0 : Fin 1) q) := by
  unfold colPart
  rw [broadcastTo_1b_ab_apply, shapeCast_self]

theorem crossPart_apply (x0 : Vec Ideal S1024x64 .f32) (x1 : Vec Ideal S64x2048 .bf16) (p : Fin 1024) (q : Fin 2048) :
    crossPart x0 x1 (ix2 p q) = ∑ c : Fin 64, x0 (ix2 p c) * x1 (ix2 c q) := by
  unfold crossPart
  rw [shapeCast_self]
  exact LibMatmulPlain.matmul_plain_zero_apply (m := 1024) (k := 64) (n := 2048) (φ₁ := .bf16) (φ₂ := .bf16) none x0 x1 p q

/-- The body's stored value at (p, q). -/
theorem pay_apply (x0 : Vec Ideal S1024x64 .f32) (x1 : Vec Ideal S64x2048 .bf16) (x2 : Vec Ideal S1x2048 .f32) (p : Fin 1024) (q : Fin 2048) :
    k0_pay1 (F := Ideal) x0 x1 x2 (ix2 p q)
      = Ideal.exp (Ideal.ofBits .f32 0xBF800000#32 * max (((∑ c : Fin 64, x0 (ix2 p c) * x0 (ix2 p c)) + x2 (ix2 (0 : Fin 1) q))
          - Ideal.ofBits .f32 0x40000000#32 * ∑ c : Fin 64, x0 (ix2 p c) * x1 (ix2 c q)) (Ideal.ofBits .f32 0x00000000#32)) := by
  rw [pay_eq, rowPart_apply, colPart_apply, crossPart_apply]

end Cert.RbfBody

end
-- ==== Proof.RbfHost.lean ====
/-
  What the region finds in the two operands the host prepares before the launch, read at an index, at the ideal
  values: the staged tile is the second argument transposed (the change of float format is the identity), so its
  entry (k, q) is the argument's (q, k); the staged row of norms is, at q, the sum over the feature coordinate of
  the squares of the argument's row q (the host sum starts from the literal zero).
-/
import proofs.«153139_j65481071403553_2_alg».proof.Proof.Gen.KernelIdeal.Frame
import proofs.«153139_j65481071403553_2_alg».proof.Proof.LibF32Literals
import Idealize.ShloMosaic.Lib.StableHlo.Run
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.RbfHost

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ)

/-- The first argument array as launched, on core `c`. -/
abbrev rowsArr (c : Dev nD) : S16384x64.Idx → EReal := m ((c : Thread nD τ).loc main_arg0)

/-- The second argument array as launched, on core `c`. -/
abbrev tileArr (c : Dev nD) : S2048x64.Idx → EReal := m ((c : Thread nD τ).loc main_arg1)

/-- The staged tile as the host leaves it: the second argument transposed, its format changed. -/
theorem V_tile (c : Dev nD) :
    (V m c main_v1 : S64x2048.Idx → EReal)
      = truncf (F := Ideal) .bf16 (transpose S64x2048 [1, 0] (m ((c : Thread nD τ).loc main_arg1)) transposes_S2048x64_S64x2048_1_0) bitsLt_bf16_f32 := by
  dsimp only [Gen.V, Gen.hostOps0]; after_results

/-- Entry (k, q) of the staged tile is entry (q, k) of the second argument. -/
theorem V_tile_apply (c : Dev nD) (k : Fin 64) (q : Fin 2048) :
    V m c main_v1 (ix2 k q) = tileArr m c (ix2 q k) := by
  rw [V_tile]
  exact transpose_ix2_apply (a := 2048) (b := 64) (m ((c : Thread nD τ).loc main_arg1)) transposes_S2048x64_S64x2048_1_0 k q

/-- The staged row of norms as the host leaves it. -/
theorem V_norms (c : Dev nD) :
    (V m c main_v4 : S1x2048.Idx → EReal)
      = broadcastInDim S1x2048 ![1] bcast_S2048_S1x2048_1
          (Host.reduceAdd (F := Ideal) (mulf (m ((c : Thread nD τ).loc main_arg1)) (m ((c : Thread nD τ).loc main_arg1)))
            (constant (F := Ideal) S_ .f32 0x00000000#32) reducesTo_S2048x64_S2048_d1 h_S_) := by
  dsimp only [Gen.V, Gen.hostOps0]; after_results

/-- Entry q of the staged row is the squared norm of row q of the second argument. -/
theorem V_norms_apply (c : Dev nD) (q : Fin 2048) :
    V m c main_v4 (ix2 (0 : Fin 1) q)
      = ∑ k : Fin 64, tileArr m c (ix2 q k) * tileArr m c (ix2 q k) := by
  rw [V_norms]
  show broadcastInDim S1x2048 ![1] bcast_S2048_S1x2048_1
    (Host.reduceAdd (F := Ideal) (mulf (tileArr m c) (tileArr m c)) (constant (F := Ideal) S_ .f32 0x00000000#32) reducesTo_S2048x64_S2048_d1 h_S_)
      (ix2 (0 : Fin 1) q) = _
  generalize tileArr m c = r
  rw [broadcastInDim_apply _ bcast_S2048_S1x2048_1 _ (ix2 (0 : Fin 1) q) (ix1 q) (fun a => match a with
    | ⟨0, _⟩ => by show q.val = if (2048 : Nat) = 1 then 0 else q.val; rw [if_neg (by decide)])]
  simp only [Host.reduceAdd, Ideal.hostReduceAdd_def]
  rw [Ideal.hostReduceAdd_single reducesTo_S2048x64_S2048_d1 (by decide)]
  show Ideal.ofBits .f32 0x00000000#32 + _ = _
  rw [LibF32Literals.ofBits_zero, zero_add]
  refine Finset.sum_congr rfl fun k _ => ?_
  show r _ * r _ = _
  have e : ∀ (h : S2048x64.Reduces [1] S2048), h.lift (ix1 q) k = ix2 q k := fun h =>
    funext fun a => Fin.ext (by match a with | ⟨0, _⟩ => rfl | ⟨1, _⟩ => rfl)
  rw [e]
  rfl

end Cert.RbfHost

end
-- ==== Proof.RbfValue.lean ====
/-
  The kernel's result array, at the ideal values, is the clamped radial kernel of the two argument arrays.

  Grid point t works on rows t·1024 … t·1024 + 1023: its row block is those rows of the first argument, the tile and
  the row of norms are the same at every point (the second argument transposed, and its squared row norms), and it
  writes back the block of the same rows of the result. Entry (p, q) of that block is the body's value at (p, q),
  which is the clamped radial kernel at (t·1024 + p, q). The sixteen blocks cover the result array: row i lies in
  the block of point i / 1024.
-/
import proofs.«153139_j65481071403553_2_alg».proof.Proof.Gen.KernelIdeal.Value
import proofs.«153139_j65481071403553_2_alg».proof.Proof.RbfBody
import proofs.«153139_j65481071403553_2_alg».proof.Proof.RbfHost
import proofs.«153139_j65481071403553_2_alg».proof.Proof.LibRadialClamp

noncomputable section

open scoped BigOperators

namespace Cert.RbfValue

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The result array: the clamped radial kernel of the argument arrays as launched. -/
abbrev result (c : Dev nD) : S16384x2048.Idx → EReal := LibRadialClamp.clamped (RbfHost.rowsArr m c) (RbfHost.tileArr m c)

/-- The body's value at (p, q), for blocks that hold row P of the first array in row p, the transposed second array,
    and its squared row norms: the clamped radial kernel at (P, q). -/
theorem point_eq (x : S16384x64.Idx → EReal) (r : S2048x64.Idx → EReal)
    (x0 : Vec Ideal S1024x64 .f32) (x1 : Vec Ideal S64x2048 .bf16) (x2 : Vec Ideal S1x2048 .f32)
    (p : Fin 1024) (q : Fin 2048) (P : Fin 16384)
    (h0 : ∀ c : Fin 64, x0 (ix2 p c) = x (ix2 P c))
    (h1 : ∀ c : Fin 64, x1 (ix2 c q) = r (ix2 q c))
    (h2 : x2 (ix2 (0 : Fin 1) q) = ∑ c : Fin 64, r (ix2 q c) * r (ix2 q c)) :
    k0_pay1 (F := Ideal) x0 x1 x2 (ix2 p q) = LibRadialClamp.clamped x r (ix2 P q) := by
  rw [RbfBody.pay_apply, h2]
  simp only [h0, h1]
  rfl

/-- The grid has sixteen points. -/
theorem point_lt (t : Fin cfg0.N) : t.val < 16 := lt_of_lt_of_eq t.isLt N_0

/-- Row p of point t's block is row t·1024 + p of the array. -/
def rowOf (t : Fin cfg0.N) (p : Fin 1024) : Fin 16384 := ⟨t.val * 1024 + p.val, by have := point_lt t; omega⟩

/-- The printed index maps, decided over the grid: the row block and the result block are block t along the rows,
    everything else is block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's row block holds rows t·1024 … of the first argument. -/
theorem read_rows (c : Dev nD) (t : Fin cfg0.N) (p : Fin 1024) (k : Fin 64) :
    iblk m c 0 t (ix2 p k) = RbfHost.rowsArr m c (ix2 (rowOf t p) k) := by
  show V m c main_arg0 (((cfg0.win 0).blk t).view.emb (ix2 p k)) = _
  rw [V_main_arg0 m c]
  refine congrArg (m ((c : Thread nD τ).loc main_arg0)) (funext fun a => Fin.ext ?_)
  obtain ⟨e0, e1, -⟩ := idx_facts t
  match a with
  | ⟨0, _⟩ => show win0_0.index t (0 : Fin 2) * 1024 + 1 * p.val = t.val * 1024 + p.val; omega
  | ⟨1, _⟩ => show win0_0.index t (1 : Fin 2) * 64 + 1 * k.val = k.val; omega

/-- Every point's tile is the second argument transposed. -/
theorem read_tile (c : Dev nD) (t : Fin cfg0.N) (k : Fin 64) (q : Fin 2048) :
    iblk m c 1 t (ix2 k q) = RbfHost.tileArr m c (ix2 q k) := by
  show V m c main_v1 (((cfg0.win 1).blk t).view.emb (ix2 k q)) = _
  have he : ((cfg0.win 1).blk t).view.emb (ix2 k q) = ix2 k q := funext fun a => Fin.ext (by
    obtain ⟨-, -, e2, e3, -⟩ := idx_facts t
    match a with
    | ⟨0, _⟩ => show win0_1.index t (0 : Fin 2) * 64 + 1 * k.val = k.val; omega
    | ⟨1, _⟩ => show win0_1.index t (1 : Fin 2) * 2048 + 1 * q.val = q.val; omega)
  rw [he]
  exact RbfHost.V_tile_apply m c k q

/-- Every point's row of norms is the squared row norms of the second argument. -/
theorem read_norms (c : Dev nD) (t : Fin cfg0.N) (q : Fin 2048) :
    iblk m c 2 t (ix2 (0 : Fin 1) q) = ∑ k : Fin 64, RbfHost.tileArr m c (ix2 q k) * RbfHost.tileArr m c (ix2 q k) := by
  show V m c main_v4 (((cfg0.win 2).blk t).view.emb (ix2 (0 : Fin 1) q)) = _
  have he : ((cfg0.win 2).blk t).view.emb (ix2 (0 : Fin 1) q) = ix2 (0 : Fin 1) q := funext fun a => Fin.ext (by
    obtain ⟨-, -, -, -, e4, e5, -⟩ := idx_facts t
    match a with
    | ⟨0, _⟩ => show win0_2.index t (0 : Fin 2) * 1 + 1 * 0 = 0; omega
    | ⟨1, _⟩ => show win0_2.index t (1 : Fin 2) * 2048 + 1 * q.val = q.val; omega)
  rw [he]
  exact RbfHost.V_norms_apply m c q

/-- What point t writes back is block t of the result array. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zero_offsets]
  simp only [View.ld_unit_zero (S := S1024x64) zero_offsets, View.ld_unit_zero (S := S64x2048) zero_offsets,
    View.ld_unit_zero (S := S1x2048) zero_offsets]
  funext j
  revert j
  show ∀ j : S1024x2048.Idx, k0_pay1 (F := Ideal) (iblk m c 0 t) (iblk m c 1 t) (iblk m c 2 t) j
    = result m c (((cfg0.win 3).blk t).view.emb j)
  intro j
  obtain ⟨p, q, rfl⟩ : ∃ (p : Fin 1024) (q : Fin 2048), j = ix2 p q := ⟨j 0, j 1, eq_ix2 j⟩
  have he : ((cfg0.win 3).blk t).view.emb (ix2 p q) = ix2 (rowOf t p) q := funext fun a => Fin.ext (by
    obtain ⟨-, -, -, -, -, -, e6, e7⟩ := idx_facts t
    match a with
    | ⟨0, _⟩ => show win0_3.index t (0 : Fin 2) * 1024 + 1 * p.val = t.val * 1024 + p.val; omega
    | ⟨1, _⟩ => show win0_3.index t (1 : Fin 2) * 2048 + 1 * q.val = q.val; omega)
  rw [he]
  exact point_eq (RbfHost.rowsArr m c) (RbfHost.tileArr m c) (iblk m c 0 t) (iblk m c 1 t) (iblk m c 2 t) p q (rowOf t p)
    (read_rows m c t p) (fun k => read_tile m c t k q) (read_norms m c t q)

/-- An index is in point t's block iff each coordinate is in the block's range on its axis. -/
theorem mem_blk (t : Fin cfg0.N) (i : S16384x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v5).slice (win0_3.rect t)).set ↔ _
  rw [View.set_slice_whole, Rect.mem_set_unit]
  exact Iff.rfl

/-- Every index of the result array is in the block of the point its row falls in. -/
theorem cover (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ : ∃ t : Fin cfg0.N, t.val = (i 0).val / 1024 :=
    ⟨⟨(i 0).val / 1024, by rw [show cfg0.N = 16 from N_0]; omega⟩, rfl⟩
  refine ⟨t, flush0_3 t, ?_⟩
  rw [mem_blk]
  obtain ⟨-, -, -, -, -, -, e6, e7⟩ := idx_facts t
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 2048 ≤ (i 1).val ∧ (i 1).val < win0_3.index t (1 : Fin 2) * 2048 + 2048
    omega

/-- The result array after the run is the clamped radial kernel of the arguments. -/
theorem final (c : Dev nD) : (dats m 0 c).arrAt 3 cfg0.N = result m c :=
  (dats m 0 c).arrAt_eq_of_cover 3 (result m c) (fun t _ => flushed_eq m c t) cover

/-- The kernel's run: every weakly fair execution ends with the result array at the clamped radial kernel of the
    arguments, and the arguments as launched. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.RbfValue

end
-- ==== Proof.lean ====
/-
  A radial kernel matrix exp(−‖x_p − r_q‖²) of 16384 rows x_p against 2048 reference rows r_q, both of 64 features,
  with the squared distance spelt by its expansion |x_p|² + |r_q|² − 2·⟨x_p, r_q⟩.

  The kernel works on sixteen blocks of 1024 rows. The host prepares, once, the reference rows transposed (and
  reformatted, which is the identity on the extended reals) and their squared norms as a row; each grid point forms
  its rows' squared norms by a lane sum, the inner products by a matrix product into the zero accumulator, clamps the
  expansion at zero, and stores the exponential of its negative. The reference forms the same three sums over the
  whole arrays and does not clamp.

  Read on the extended reals the two differ only by the clamp, and they do differ at infinite inputs (∞ − ∞ is −∞
  there, which the clamp raises to 0). Under the precondition every input is a real number; then the expansion is
  ∑ (x_p(c) − r_q(c))² ≥ 0 and the clamp is the identity, so both programs end with the same array.

  The three frames are the programs' runs with the result dropped; the idealization rewrote nothing.
-/
import proofs.«153139_j65481071403553_2_alg».proof.Defs
import proofs.«153139_j65481071403553_2_alg».proof.Proof.Gen.Kernel
import proofs.«153139_j65481071403553_2_alg».proof.Proof.Gen.Kernel.Skeleton
import proofs.«153139_j65481071403553_2_alg».proof.Proof.Gen.Kernel.Launch
import proofs.«153139_j65481071403553_2_alg».proof.Proof.Gen.Kernel.Points
import proofs.«153139_j65481071403553_2_alg».proof.Proof.Gen.Kernel.Frame
import proofs.«153139_j65481071403553_2_alg».proof.Proof.Gen.KernelIdeal
import proofs.«153139_j65481071403553_2_alg».proof.Proof.Gen.KernelIdeal.Skeleton
import proofs.«153139_j65481071403553_2_alg».proof.Proof.Gen.KernelIdeal.Launch
import proofs.«153139_j65481071403553_2_alg».proof.Proof.Gen.KernelIdeal.Points
import proofs.«153139_j65481071403553_2_alg».proof.Proof.Gen.KernelIdeal.Frame
import proofs.«153139_j65481071403553_2_alg».proof.Proof.Gen.ReferenceIdeal
import proofs.«153139_j65481071403553_2_alg».proof.Proof.Gen.KernelIdeal.Value
import proofs.«153139_j65481071403553_2_alg».proof.Proof.Gen.ReferenceIdeal.Run
import proofs.«153139_j65481071403553_2_alg».proof.Proof.Gen.ReferenceIdeal.Read
import proofs.«153139_j65481071403553_2_alg».proof.Proof.Gen.Pre_finite_inputs
import proofs.«153139_j65481071403553_2_alg».proof.Proof.LibRadialClamp
import proofs.«153139_j65481071403553_2_alg».proof.Proof.RbfRef
import proofs.«153139_j65481071403553_2_alg».proof.Proof.RbfFinite
import proofs.«153139_j65481071403553_2_alg».proof.Proof.RbfValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the clamped radial kernel of the arguments: the kernel because that is what its blocks
    hold, the reference because on real inputs the unclamped expansion is never negative. -/
theorem algebraic : Cert.algebraic_KernelIdeal_ReferenceIdeal := by
  intro m ρ m' ρ' hpre hagree
  refine ⟨fun c => Cert.RbfValue.result m c, Cert.RbfValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.RbfRef.val_eq_plain, (hagree c).1, (hagree c).2]
  obtain ⟨hx, hr⟩ := Cert.RbfFinite.real_of_pre _ _ (hpre c)
  exact Cert.LibRadialClamp.plain_eq_clamped (a := 16384) (b := 2048) (k := 64) _ _ hx hr

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
